-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S_ : Shape := ⟨0, ![]⟩

class Facts : Prop where
  bcast_S_S16x24x512x128 : S_.BroadcastsInDim S16x24x512x128 (![] : Fin 0 → Fin S16x24x512x128.rank)
  reducesTo_S16x24x512x128_S_d0_1_2_3 : S16x24x512x128.ReducesTo [0, 1, 2, 3] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S12x128 : S_.BroadcastsInDim S12x128 (![] : Fin 0 → Fin S12x128.rank)
  reducesTo_S12x128_S_d0_1 : S12x128.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S128 .f32) (main_arg5 : FVec F S12x128 .f32) (main_arg6 : FVec F S12 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S12x128 .f32 := Host.absf main_arg5
  let main_cst_8 : FVec F S_ .f32 := constant S_ .f32 0x7F800000#32
  let main_v25 : FVec F S12x128 .f32 := broadcastInDim S12x128 ![] bcast_S_S12x128 main_cst_8
  let main_v26 : IVec S12x128 1 := cmpf .olt main_v24 main_v25
  let main_c_9 : IVec S_ 1 := constantI S_ 1 1#1
  let main_v27 : IVec S_ 1 := (fun x v => Host.reduce IntOp.andi x v reducesTo_S12x128_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S16x24x512x128 .f32) (main_arg1 : FVec F S16x24x512x128 .f32) (main_arg2 : FVec F S16x24x512x128 .f32) (main_arg3 : FVec F S128x384 .f32) (main_arg4 : FVec F S128 .f32) (main_arg5 : FVec F S12x128 .f32) (main_arg6 : FVec F S12 .f32) : IVec S_ 1 :=
  let main_v0 : FVec F S16x24x512x128 .f32 := Host.absf main_arg0
  let main_cst : FVec F S_ .f32 := constant S_ .f32 0x7F800000#32
  let main_v1 : FVec F S16x24x512x128 .f32 := broadcastInDim S16x24x512x128 ![] bcast_S_S16x24x512x128 main_cst
  let main_v2 : IVec S16x24x512x128 1 := cmpf .olt main_v0 main_v1
  let main_c : IVec S_ 1 := constantI S_ 1 1#1
  let main_v3 : IVec S_ 1 := (fun x v => Host.reduce IntOp.andi x v reducesTo_S16x24x512x128_S_d0_1_2_3 h_S_) main_v2 main_c
  let main_v4 : FVec F S16x24x512x128 .f32 := Host.absf main_arg1
  let main_cst_0 : FVec F S_ .f32 := constant S_ .f32 0x7F800000#32
  let main_v5 : FVec F S16x24x512x128 .f32 := broadcastInDim S16x24x512x128 ![] bcast_S_S16x24x512x128 main_cst_0
  let main_v6 : IVec S16x24x512x128 1 := cmpf .olt main_v4 main_v5
  let main_c_1 : IVec S_ 1 := constantI S_ 1 1#1
  let main_v7 : IVec S_ 1 := (fun x v => Host.reduce IntOp.andi x v reducesTo_S16x24x512x128_S_d0_1_2_3 h_S_) main_v6 main_c_1
  let main_v8 : IVec S_ 1 := andi main_v3 main_v7
  let main_v9 : FVec F S16x24x512x128 .f32 := Host.absf main_arg2
  let main_cst_2 : FVec F S_ .f32 := constant S_ .f32 0x7F800000#32
  let main_v10 : FVec F S16x24x512x128 .f32 := broadcastInDim S16x24x512x128 ![] bcast_S_S16x24x512x128 main_cst_2
  let main_v11 : IVec S16x24x512x128 1 := cmpf .olt main_v9 main_v10
  let main_c_3 : IVec S_ 1 := constantI S_ 1 1#1
  let main_v12 : IVec S_ 1 := (fun x v => Host.reduce IntOp.andi x v reducesTo_S16x24x512x128_S_d0_1_2_3 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S16x12x512 : Shape := ⟨3, ![16, 12, 512]⟩
abbrev S4x1x512x128 : Shape := ⟨4, ![4, 1, 512, 128]⟩
abbrev S4x12x512 : Shape := ⟨3, ![4, 12, 512]⟩
abbrev S2048x128 : Shape := ⟨2, ![2048, 128]⟩
abbrev S128x128 : Shape := ⟨2, ![128, 128]⟩
abbrev S1x128 : Shape := ⟨2, ![1, 128]⟩
abbrev S512x128 : Shape := ⟨2, ![512, 128]⟩
abbrev S12x512 : Shape := ⟨2, ![12, 512]⟩
abbrev S12x1 : Shape := ⟨2, ![12, 1]⟩
abbrev S1x12x512 : Shape := ⟨3, ![1, 12, 512]⟩
abbrev S16x12x512x1 : Shape := ⟨4, ![16, 12, 512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16x24x512x128, .f32⟩
  | .hbm, ⟨1, _⟩ => ⟨S16x24x512x128, .f32⟩
  | .hbm, ⟨2, _⟩ => ⟨S16x24x512x128, .f32⟩
  | .hbm, ⟨3, _⟩ => ⟨S128x384, .f32⟩
  | .hbm, ⟨4, _⟩ => ⟨S128, .f32⟩
  | .hbm, ⟨5, _⟩ => ⟨S12x128, .f32⟩
  | .hbm, ⟨6, _⟩ => ⟨S12, .f32⟩
  | .hbm, ⟨7, _⟩ => ⟨S128x384, .bf16⟩
  | .hbm, ⟨8, _⟩ => ⟨S12x128, .bf16⟩
  | .hbm, ⟨9, _⟩ => ⟨S16x12x512, .f32⟩
  | .hbm, ⟨10, _⟩ => ⟨S16x12x512x1, .f32⟩
  | .local _ .vmem, ⟨0, _⟩ => ⟨S4x1x512x128, .f32⟩
  | .local _ .vmem, ⟨1, _⟩ => ⟨S4x1x512x128, .f32⟩
  | .local _ .vmem, ⟨2, _⟩ => ⟨S4x1x512x128, .f32⟩
  | .local _ .vmem, ⟨3, _⟩ => ⟨S4x1x512x128, .f32⟩
  | .local _ .vmem, ⟨4, _⟩ => ⟨S4x1x512x128, .f32⟩
  | .local _ .vmem, ⟨5, _⟩ => ⟨S4x1x512x128, .f32⟩
  | .local _ .vmem, ⟨6, _⟩ => ⟨S128x384, .bf16⟩
  | .local _ .vmem, ⟨7, _⟩ => ⟨S128, .f32⟩
  | .local _ .vmem, ⟨8, _⟩ => ⟨S12x128, .bf16⟩
  | .local _ .vmem, ⟨9, _⟩ => ⟨S12, .f32⟩
  | .local _ .vmem, ⟨10, _⟩ => ⟨S4x12x512, .f32⟩
  | .local _ .vmem, ⟨11, _⟩ => ⟨S4x12x512, .f32⟩
  | _, _ => ⟨S16x24x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_1 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_2 (i : grid0.Coords) : Fin 4 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![arg0.toNat, c23_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x12x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S4x1x512x128_S4x1x512x128_0_0_0_0 : ∀ a, (![0, 0, 0, 0] : Fin 4 → Nat) a + S4x1x512x128.size a ≤ S4x1x512x128.size a
  h_S4x1x512x128 : 0 < S4x1x512x128.numel
  shapeCasts_S4x1x512x128_S2048x128 : S4x1x512x128.ShapeCasts S2048x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S128x384_o0_0_S128x128 : S128x384.Slices ![0, 0] S128x128
  slices_S128x384_o0_128_S128x128 : S128x384.Slices ![0, 128] S128x128
  slices_S128x384_o0_256_S128x128 : S128x384.Slices ![0, 256] S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S12_S12_0 : ∀ a, (![0] : Fin 1 → Nat) a + S12.size a ≤ S12.size a
  h_S12 : 0 < S12.numel
  slices_S2048x128_o0_0_S512x128 : S2048x128.Slices ![0, 0] S512x128
  shapeCasts_S12_S12x1 : S12.ShapeCasts S12x1
  broadcasts_S12x1_S12x512 : S12x1.Broadcasts S12x512
  inb_S4x12x512_S1x12x512_0_0_0 : ∀ a, (![0, 0, 0] : Fin 3 → Nat) a + S1x12x512.size a ≤ S4x12x512.size a
  h_S1x12x512 : 0 < S1x12x512.numel
  shapeCasts_S1x12x512_S12x512 : S1x12x512.ShapeCasts S12x512
  shapeCasts_S12x512_S1x12x512 : S12x512.ShapeCasts S1x12x512
  slices_S2048x128_o512_0_S512x128 : S2048x128.Slices ![512, 0] S512x128
  inb_S4x12x512_S1x12x512_1_0_0 : ∀ a, (![1, 0, 0] : Fin 3 → Nat) a + S1x12x512.size a ≤ S4x12x512.size a
  slices_S2048x128_o1024_0_S512x128 : S2048x128.Slices ![1024, 0] S512x128
  inb_S4x12x512_S1x12x512_2_0_0 : ∀ a, (![2, 0, 0] : Fin 3 → Nat) a + S1x12x512.size a ≤ S4x12x512.size a
  slices_S2048x128_o1536_0_S512x128 : S2048x128.Slices ![1536, 0] S512x128
  inb_S4x12x512_S1x12x512_3_0_0 : ∀ a, (![3, 0, 0] : Fin 3 → Nat) a + S1x12x512.size a ≤ S4x12x512.size a
  bcast_S16x12x512_S16x12x512x1_0_1_2 : S16x12x512.BroadcastsInDim S16x12x512x1 (![0, 1, 2] : Fin 3 → Fin S16x12x512x1.rank)
  dot_S2048x128_S128x128_S2048x128_1_1_0_0_n_n_wf : DotDims.WF S2048x128 S128x128 S2048x128 [1] [1] [0] [0] [] []
  dot_S12x128_S512x128_S12x512_1_1_0_0_n_n_wf : DotDims.WF S12x128 S512x128 S12x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x128.size a ≤ S16x24x512x128.size a
  hwx0_0 : ∀ i : grid0.Coords, EltTy.bits .f32 = 32 ∨ (Rect.block (s := S16x24x512x128) S4x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512x128.size a ≤ S16x24x512x128.size a
  hwx0_1 : ∀ i : grid0.Coords, EltTy.bits .f32 = 32 ∨ (Rect.block (s := S16x24x512x128) S4x1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512x128.size a ≤ S16x24x512x128.size a
  hwx0_2 : ∀ i : grid0.Coords, EltTy.bits .f32 = 32 ∨ (Rect.block (s := S16x24x512x128) S4x1x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x128.size a ≤ S12x128.size a
  hwx0_5 : ∀ i : grid0.Coords, EltTy.bits .bf16 = 32 ∨ (Rect.block (s := S12x128) S12x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x12x512.size a ≤ S16x12x512.size a
  hwx0_7 : ∀ i : grid0.Coords, EltTy.bits .f32 = 32 ∨ (Rect.block (s := S16x12x512) S4x12x512.size (cc0_transform_7 i) (hinb0_7 i)).WholeWords (EltTy.packing .f32)

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def dot_S12x128_S512x128_S12x512_1_1_0_0_n_n : DotDims S12x128 S512x128 S12x512 where
  lhsContracting := [1]
  rhsContracting := [1]
  lhsNonContracting := [0]
  rhsNonContracting := [0]
  lhsBatch := []
  rhsBatch := []
  wf := dot_S12x128_S512x128_S12x512_1_1_0_0_n_n_wf

abbrev win0_0 : Pipeline.Window sig grid0 :=
  Pipeline.Window.ofSpec (Memref.whole main_arg0) S4x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S12x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S4x12x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x24x512x128 : Shape := ⟨4, ![16, 24, 512, 128]⟩
abbrev S128x384 : Shape := ⟨2, ![128, 384]⟩
abbrev S128 : Shape := ⟨1, ![128]⟩
abbrev S12x128 : Shape := ⟨2, ![12, 128]⟩
abbrev S12 : Shape := ⟨1, ![12]⟩
abbrev S16x1x512x128 : Shape := ⟨4, ![16, 1, 512, 128]⟩
abbrev S16x512x128 : Shape := ⟨3, ![16, 512, 128]⟩
abbrev S16x512x384 : Shape := ⟨3, ![16, 512, 384]⟩
abbrev S1x1x128 : Shape := ⟨3, ![1, 1, 128]⟩
abbrev S_ : Shape := ⟨0, ![]⟩
abbrev S16x512x12 : Shape := ⟨3, ![16, 512, 12]⟩
abbrev S1x1x12 : Shape := ⟨3, ![1, 1, 12]⟩
abbrev S16x512x12x1 : Shape := ⟨4, ![16, 512, 12, 1]⟩
abbrev S16x12x512x1 : Shape := ⟨4, ![16, 12, 512, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x24x512x128, .f32⟩
  | .hbm, ⟨1, _⟩ => ⟨S16x24x512x128, .f32⟩
  | .hbm, ⟨2, _⟩ => ⟨S16x24x512x128, .f32⟩
  | .hbm, ⟨3, _⟩ => ⟨S128x384, .f32⟩
  | .hbm, ⟨4, _⟩ => ⟨S128, .f32⟩
  | .hbm, ⟨5, _⟩ => ⟨S12x128, .f32⟩
  | .hbm, ⟨6, _⟩ => ⟨S12, .f32⟩
  | .hbm, ⟨7, _⟩ => ⟨S16x1x512x128, .f32⟩
  | .hbm, ⟨8, _⟩ => ⟨S16x512x128, .f32⟩
  | .hbm, ⟨9, _⟩ => ⟨S16x1x512x128, .f32⟩
  | .hbm, ⟨10, _⟩ => ⟨S16x512x128, .f32⟩
  | .hbm, ⟨11, _⟩ => ⟨S16x1x512x128, .f32⟩
  | .hbm, ⟨12, _⟩ => ⟨S16x512x128, .f32⟩
  | .hbm, ⟨13, _⟩ => ⟨S16x512x384, .f32⟩
  | .hbm, ⟨14, _⟩ => ⟨S16x512x128, .f32⟩
  | .hbm, ⟨15, _⟩ => ⟨S1x1x128, .f32⟩
  | .hbm, ⟨16, _⟩ => ⟨S16x512x128, .f32⟩
  | .hbm, ⟨17, _⟩ => ⟨S16x512x128, .f32⟩
  | .hbm, ⟨18, _⟩ => ⟨S_, .f32⟩
  | .hbm, ⟨19, _⟩ => ⟨S16x512x128, .f32⟩
  | .hbm, ⟨20, _⟩ => ⟨S16x512x128, .i1⟩
  | .hbm, ⟨21, _⟩ => ⟨S_, .f32⟩
  | .hbm, ⟨22, _⟩ => ⟨S16x512x128, .f32⟩
  | .hbm, ⟨23, _⟩ => ⟨S16x512x128, .f32⟩
  | .hbm, ⟨24, _⟩ => ⟨S16x512x128, .f32⟩
  | .hbm, ⟨25, _⟩ => ⟨S16x512x12, .f32⟩
  | .hbm, ⟨26, _⟩ => ⟨S1x1x12, .f32⟩
  | .hbm, ⟨27, _⟩ => ⟨S16x512x12, .f32⟩
  | .hbm, ⟨28, _⟩ => ⟨S16x512x12, .f32⟩
  | .hbm, ⟨29, _⟩ => ⟨S16x512x12x1, .f32⟩
  | .hbm, ⟨30, _⟩ => ⟨S16x12x512x1, .f32⟩
  | _, _ => ⟨S16x24x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S16x24x512x128_S16x1x512x128_0_23_0_0 : S16x24x512x128.Slices ![0, 23, 0, 0] S16x1x512x128
  shapeCasts_S16x1x512x128_S16x512x128 : S16x1x512x128.ShapeCasts S16x512x128
  concatenates_S16x512x128_S16x512x128_S16x512x128_S16x512x384_d2 : Shape.Concatenates [S16x512x128, S16x512x128, S16x512x128] S16x512x384 2
  bcast_S128_S1x1x128_2 : S128.BroadcastsInDim S1x1x128 (![2] : Fin 1 → Fin S1x1x128.rank)
  bcast_S1x1x128_S16x512x128_0_1_2 : S1x1x128.BroadcastsInDim S16x512x128 (![0, 1, 2] : Fin 3 → Fin S16x512x128.rank)
  bcast_S_S16x512x128 : S_.BroadcastsInDim S16x512x128 (![] : Fin 0 → Fin S16x512x128.rank)
  bcast_S12_S1x1x12_2 : S12.BroadcastsInDim S1x1x12 (![2] : Fin 1 → Fin S1x1x12.rank)
  bcast_S1x1x12_S16x512x12_0_1_2 : S1x1x12.BroadcastsInDim S16x512x12 (![0, 1, 2] : Fin 3 → Fin S16x512x12.rank)
  shapeCasts_S16x512x12_S16x512x12x1 : S16x512x12.ShapeCasts S16x512x12x1
  transposes_S16x512x12x1_S16x12x512x1_0_2_1_3 : S16x512x12x1.Transposes [0, 2, 1, 3] S16x12x512x1
  dot_S16x512x384_S128x384_S16x512x128_2_1_01_0_n_n_wf : DotDims.WF S16x512x384 S128x384 S16x512x128 [2] [1] [0, 1] [0] [] []
  dot_S16x512x128_S12x128_S16x512x12_2_1_01_0_n_n_wf : DotDims.WF S16x512x128 S12x128 S16x512x12 [2] [1] [0, 1] [0] [] []

variable [Facts₀]

def dot_S16x512x384_S128x384_S16x512x128_2_1_01_0_n_n : DotDims S16x512x384 S128x384 S16x512x128 where
  lhsContracting := [2]
  rhsContracting := [1]
  lhsNonContracting := [0, 1]
  rhsNonContracting := [0]
  lhsBatch := []
  rhsBatch := []
  wf := dot_S16x512x384_S128x384_S16x512x128_2_1_01_0_n_n_wf
def dot_S16x512x128_S12x128_S16x512x12_2_1_01_0_n_n : DotDims S16x512x128 S12x128 S16x512x12 where
  lhsContracting := [2]
  rhsContracting := [1]
  lhsNonContracting := [0, 1]
  rhsNonContracting := [0]
  lhsBatch := []
  rhsBatch := []
  wf := dot_S16x512x128_S12x128_S16x512x12_2_1_01_0_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Spec.lean ====
/-
  A two-layer perceptron over the last time step of three feature tensors, as one function of the argument arrays.

  Arguments: three tensors X0, X1, X2 of shape [16, 24, 512, 128] (batch, time, node, feature), a first weight matrix
  W1 of shape [128, 384] whose 384 columns are three runs of 128 (one run per tensor), a bias b1 of length 128, a second
  weight matrix W2 of shape [12, 128] and a bias b2 of length 12.  Only time step 23 is read.  For batch b, node n and
  hidden unit d the pre-activation is

      pre b n d = ((Σ_c X0[b,23,n,c]·W1[d,c] + Σ_c X1[b,23,n,c]·W1[d,128+c]) + Σ_c X2[b,23,n,c]·W1[d,256+c]) + b1[d],

  the hidden value is the leaky rectifier of it (the value itself when it is above zero, else the slope times it), and

      out b z n = Σ_d W2[z,d] · leaky (pre b n d) + b2[z].

  The result array [16, 12, 512, 1] holds out b z n at (b, z, n, 0).  Everything is on the extended reals; the only laws
  used anywhere are associativity and commutativity of + and commutativity of ·, which hold there without any
  finiteness.  Also here: a sum over 384 terms is the sum of its three runs of 128.
-/
import Idealize.ShloMosaic.PureOps.Ideal
import Idealize.ShloMosaic.Lib.ValueIdx

noncomputable section

namespace Cert.Mlp

open Idealize.ShloMosaic Idealize.ShloMosaic.ValueIdx
open scoped BigOperators

/-- The leaky rectifier: `y` when `y` is above zero, else the slope (the f32 word 0x3C23D70A) times `y`; spelt as the
    comparison and the choice both programs make. -/
def leaky (y : Ideal .f32) : Ideal .f32 :=
  Scalar.select (FloatOps.cmpf .ogt y (FloatOps.ofBits (F := Ideal) .f32 0x00000000#32)) y
    (FloatOps.mulf (FloatOps.ofBits (F := Ideal) .f32 0x3C23D70A#32) y)

/-- The first layer before the rectifier, at batch `b`, node `n`, hidden unit `d`: the three tensors' partial
    products added from left to right, then the bias. -/
def pre (X0 X1 X2 : (⟨4, ![16, 24, 512, 128]⟩ : Shape).Idx → EReal) (W1 : (⟨2, ![128, 384]⟩ : Shape).Idx → EReal)
    (b1 : (⟨1, ![128]⟩ : Shape).Idx → EReal) (b : Fin 16) (n : Fin 512) (d : Fin 128) : EReal :=
  (((∑ c : Fin 128, X0 (ix4 b (23 : Fin 24) n c) * W1 (ix2 d (⟨c.val, by omega⟩ : Fin 384)))
      + ∑ c : Fin 128, X1 (ix4 b (23 : Fin 24) n c) * W1 (ix2 d (⟨128 + c.val, by omega⟩ : Fin 384)))
      + ∑ c : Fin 128, X2 (ix4 b (23 : Fin 24) n c) * W1 (ix2 d (⟨256 + c.val, by omega⟩ : Fin 384)))
    + b1 (ix1 d)

/-- The second layer at batch `b`, output unit `z`, node `n`. -/
def out (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) (b : Fin 16) (z : Fin 12) (n : Fin 512) : EReal :=
  (∑ d : Fin 128, W2 (ix2 z d) * leaky (pre X0 X1 X2 W1 b1 b n d)) + b2 (ix1 z)

/-- The [16, 12, 512] array of the second layer's values. -/
def G3 (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) : (⟨3, ![16, 12, 512]⟩ : Shape).Idx → EReal :=
  fun i => out X0 X1 X2 W1 b1 W2 b2 (i 0) (i 1) (i 2)

/-- The result: the same values with a trailing unit axis. -/
def G4 (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) : (⟨4, ![16, 12, 512, 1]⟩ : Shape).Idx → EReal :=
  fun i => out X0 X1 X2 W1 b1 W2 b2 (i 0) (i 1) (i 2)

theorem G3_apply (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) (b : Fin 16) (z : Fin 12) (n : Fin 512) :
    G3 X0 X1 X2 W1 b1 W2 b2 (ix3 b z n) = out X0 X1 X2 W1 b1 W2 b2 b z n := rfl

theorem G4_apply (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal)
    (b2 : (⟨1, ![12]⟩ : Shape).Idx → EReal) (b : Fin 16) (z : Fin 12) (n : Fin 512) (u : Fin 1) :
    G4 X0 X1 X2 W1 b1 W2 b2 (ix4 b z n u) = out X0 X1 X2 W1 b1 W2 b2 b z n := rfl

/-- A sum over 384 terms is the sum of its three runs of 128, added from left to right. -/
theorem sum_384_runs {M : Type*} [AddCommMonoid M] (f : Fin 384 → M) :
    ∑ k : Fin 384, f k
      = ((∑ c : Fin 128, f ⟨c.val, by omega⟩) + ∑ c : Fin 128, f ⟨128 + c.val, by omega⟩)
        + ∑ c : Fin 128, f ⟨256 + c.val, by omega⟩ := by
  rw [show (∑ k : Fin 384, f k) = ∑ k : Fin (128 + 128 + 128), f k from rfl, Fin.sum_univ_add, Fin.sum_univ_add]
  refine congrArg₂ (· + ·) (congrArg₂ (· + ·) ?_ ?_) ?_ <;>
    refine Finset.sum_congr rfl fun c _ => congrArg f (Fin.ext ?_)
  · rfl
  · rfl
  · show 128 + 128 + c.val = 256 + c.val
    omega

end Cert.Mlp

end
-- ==== Proof.KernelBlock.lean ====
/-
  What one grid point of the kernel computes, entry by entry.

  At a grid point the body holds a block of four batches of each tensor at the one time step the window selects, shapes
  [4, 1, 512, 128], the whole first weight matrix [128, 384], the bias [128], the second weight matrix [12, 128] and its
  bias [12].  It views each block as a [2048, 128] matrix of rows (row 512·bb + n is node n of batch bb), multiplies it
  with one 128-column run of the first weight matrix (rows against rows), adds the three products and the bias row,
  applies the leaky rectifier, and for each of the four batches multiplies the second weight matrix with that batch's
  512 rows (again rows against rows), adds the bias as a column, and stores the [12, 512] result as slab bb of the
  [4, 12, 512] output block.  Read at (bb, z, n) the stored block is the two-layer formula of the specification with the
  block's arrays in place of the whole ones.
-/
import proofs.«143476_j54640573939741_2_alg».proof.Proof.Gen.KernelIdeal.Frame
import proofs.«143476_j54640573939741_2_alg».proof.Proof.LibLayout
import proofs.«143476_j54640573939741_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Mlp.Block

open Cert.KernelIdeal Cert.KernelIdeal.Gen Idealize.ShloMosaic Idealize.ShloMosaic.ValueIdx Cert.Mlp
open scoped BigOperators

/-! ## The block's formula -/

/-- The first layer before the rectifier on a block: batch `bb` of the block, node `n`, hidden unit `d`. -/
def preB (x0 x1 x2 : S4x1x512x128.Idx → EReal) (x3 : S128x384.Idx → EReal) (x4 : S128.Idx → EReal)
    (bb : Fin 4) (n : Fin 512) (d : Fin 128) : EReal :=
  (((∑ c : Fin 128, x0 (ix4 bb (0 : Fin 1) n c) * x3 (ix2 d (⟨c.val, by omega⟩ : Fin 384)))
      + ∑ c : Fin 128, x1 (ix4 bb (0 : Fin 1) n c) * x3 (ix2 d (⟨128 + c.val, by omega⟩ : Fin 384)))
      + ∑ c : Fin 128, x2 (ix4 bb (0 : Fin 1) n c) * x3 (ix2 d (⟨256 + c.val, by omega⟩ : Fin 384)))
    + x4 (ix1 d)

/-- The second layer on a block. -/
def outB (x0 x1 x2 : S4x1x512x128.Idx → EReal) (x3 : S128x384.Idx → EReal) (x4 : S128.Idx → EReal)
    (x5 : S12x128.Idx → EReal) (x6 : S12.Idx → EReal) (bb : Fin 4) (z : Fin 12) (n : Fin 512) : EReal :=
  (∑ d : Fin 128, x5 (ix2 z d) * leaky (preB x0 x1 x2 x3 x4 bb n d)) + x6 (ix1 z)

/-- The output block as one function of its index. -/
def blockFn (x0 x1 x2 : S4x1x512x128.Idx → EReal) (x3 : S128x384.Idx → EReal) (x4 : S128.Idx → EReal)
    (x5 : S12x128.Idx → EReal) (x6 : S12.Idx → EReal) : S4x12x512.Idx → EReal :=
  fun y => outB x0 x1 x2 x3 x4 x5 x6 (y 0) (y 1) (y 2)

/-! ## The two matrix products, entry by entry -/

/-- Rows of a [2048, 128] matrix against rows of a [128, 128] matrix, into zero. -/
theorem mm1_apply (lhs : FVec Ideal S2048x128 .bf16) (rhs : FVec Ideal S128x128 .bf16) (r : Fin 2048) (d : Fin 128) :
    matmul dot_S2048x128_S128x128_S2048x128_1_1_0_0_n_n none lhs rhs (constant S2048x128 .f32 0x00000000#32) (ix2 r d)
      = ∑ c : Fin 128, lhs (ix2 r c) * rhs (ix2 d c) :=
  Cert.LibLayout.matmul_rows_rows_apply dot_S2048x128_S128x128_S2048x128_1_1_0_0_n_n rfl rfl rfl rfl
    (fun j k => by
      unfold DotDims.lhsIdx
      rw [dif_neg (show ¬(0 : Fin S2048x128.rank) ∈ dot_S2048x128_S128x128_S2048x128_1_1_0_0_n_n.lhsBatch by decide),
        dif_pos (show (0 : Fin S2048x128.rank) ∈ dot_S2048x128_S128x128_S2048x128_1_1_0_0_n_n.lhsNonContracting by decide)]
      rfl)
    (fun j k => by
      unfold DotDims.rhsIdx
      rw [dif_neg (show ¬(0 : Fin S128x128.rank) ∈ dot_S2048x128_S128x128_S2048x128_1_1_0_0_n_n.rhsBatch by decide),
        dif_pos (show (0 : Fin S128x128.rank) ∈ dot_S2048x128_S128x128_S2048x128_1_1_0_0_n_n.rhsNonContracting by decide)]
      rfl)
    none lhs rhs r d

/-- Rows of a [12, 128] matrix against rows of a [512, 128] matrix, into zero. -/
theorem mm2_apply (lhs : FVec Ideal S12x128 .bf16) (rhs : FVec Ideal S512x128 .bf16) (z : Fin 12) (n : Fin 512) :
    matmul dot_S12x128_S512x128_S12x512_1_1_0_0_n_n none lhs rhs (constant S12x512 .f32 0x00000000#32) (ix2 z n)
      = ∑ k : Fin 128, lhs (ix2 z k) * rhs (ix2 n k) :=
  Cert.LibLayout.matmul_rows_rows_apply dot_S12x128_S512x128_S12x512_1_1_0_0_n_n rfl rfl rfl rfl
    (fun j k => by
      unfold DotDims.lhsIdx
      rw [dif_neg (show ¬(0 : Fin S12x128.rank) ∈ dot_S12x128_S512x128_S12x512_1_1_0_0_n_n.lhsBatch by decide),
        dif_pos (show (0 : Fin S12x128.rank) ∈ dot_S12x128_S512x128_S12x512_1_1_0_0_n_n.lhsNonContracting by decide)]
      rfl)
    (fun j k => by
      unfold DotDims.rhsIdx
      rw [dif_neg (show ¬(0 : Fin S512x128.rank) ∈ dot_S12x128_S512x128_S12x512_1_1_0_0_n_n.rhsBatch by decide),
        dif_pos (show (0 : Fin S512x128.rank) ∈ dot_S12x128_S512x128_S12x512_1_1_0_0_n_n.rhsNonContracting by decide)]
      rfl)
    none lhs rhs z n

/-! ## The layout steps -/

/-- Row 512·bb + n of the block viewed as a matrix is node n of batch bb. -/
theorem rows_apply (x : Vec Ideal S4x1x512x128 .f32) (h : S4x1x512x128.ShapeCasts S2048x128) (hb : FTy.bits .bf16 < FTy.bits .f32)
    (bb : Fin 4) (n : Fin 512) (c : Fin 128) (hr : 512 * bb.val + n.val < 2048) :
    (truncf .bf16 (shapeCast S2048x128 x h) hb : FVec Ideal S2048x128 .bf16) (ix2 (⟨512 * bb.val + n.val, hr⟩ : Fin 2048) c)
      = x (ix4 bb (0 : Fin 1) n c) :=
  shapeCast_apply x h (ix2 (⟨512 * bb.val + n.val, hr⟩ : Fin 2048) c) (ix4 bb (0 : Fin 1) n c) (by
    rw [Shape.rowMajor_val_four, Shape.rowMajor_val_two]
    show ((bb.val * 1 + 0) * 512 + n.val) * 128 + c.val = (512 * bb.val + n.val) * 128 + c.val
    omega)

/-- A 128-column run of the first weight matrix, from column `o`. -/
theorem wrun_apply (w : Vec Ideal S128x384 .bf16) (hc : S128x384.ShapeCasts S128x384) (o : Nat)
    (h : S128x384.Slices ![0, o] S128x128) (d c : Fin 128) (k : Fin 384) (hk : k.val = o + c.val) :
    (extractStridedSlice S128x128 ![0, o] (shapeCast S128x384 w hc) h : FVec Ideal S128x128 .bf16) (ix2 d c) = w (ix2 d k) := by
  rw [shapeCast_self]
  exact slice2_axis1_apply o w h d c k hk

/-- The 512 rows of one batch cut from the [2048, 128] matrix. -/
theorem batchRows_apply (v : FVec Ideal S2048x128 .bf16) (o : Nat) (h : S2048x128.Slices ![o, 0] S512x128)
    (n : Fin 512) (k : Fin 128) (r : Fin 2048) (hr : r.val = o + n.val) :
    (extractStridedSlice S512x128 ![o, 0] v h : FVec Ideal S512x128 .bf16) (ix2 n k) = v (ix2 r k) :=
  slice2_axis0_apply o v h n k r hr

/-! ## The hidden layer on the block -/

/-- Entry (512·bb + n, d) of the rectified first layer is the leaky rectifier of the block's pre-activation. -/
theorem hidden_apply (x0 x1 x2 : Vec Ideal S4x1x512x128 .f32) (x3 : Vec Ideal S128x384 .bf16) (x4 : Vec Ideal S128 .f32)
    (bb : Fin 4) (n : Fin 512) (d : Fin 128) (hr : 512 * bb.val + n.val < 2048) :
    k0_pay5 x0 x1 x2 x3 x4 (ix2 (⟨512 * bb.val + n.val, hr⟩ : Fin 2048) d) = leaky (preB x0 x1 x2 x3 x4 bb n d) := by
  unfold k0_pay5
  show leaky _ = leaky _
  refine congrArg leaky ?_
  unfold preB
  refine congrArg₂ (· + ·) (congrArg₂ (· + ·) (congrArg₂ (· + ·) ?_ ?_) ?_) ?_
  · refine (mm1_apply _ _ _ d).trans (Finset.sum_congr rfl fun c _ => congrArg₂ (· * ·) ?_ ?_)
    · exact rows_apply x0 _ _ bb n c hr
    · exact wrun_apply x3 _ 0 _ d c _ (by show c.val = 0 + c.val; omega)
  · refine (mm1_apply _ _ _ d).trans (Finset.sum_congr rfl fun c _ => congrArg₂ (· * ·) ?_ ?_)
    · exact rows_apply x1 _ _ bb n c hr
    · exact wrun_apply x3 _ 128 _ d c _ rfl
  · refine (mm1_apply _ _ _ d).trans (Finset.sum_congr rfl fun c _ => congrArg₂ (· * ·) ?_ ?_)
    · exact rows_apply x2 _ _ bb n c hr
    · exact wrun_apply x3 _ 256 _ d c _ rfl
  · exact Cert.LibLayout.rowBias_apply x4 _ _ _ d

/-! ## One batch's slab of the output block -/

/-- The second layer for the 512 rows from row `o` of any [2048, 128] matrix, stored with a leading unit axis. -/
theorem slab_apply (v28 : FVec Ideal S2048x128 .bf16) (v30 : FVec Ideal S12x128 .bf16) (v31 : Vec Ideal S12 .f32) (o : Nat)
    (hs : S2048x128.Slices ![o, 0] S512x128) (h1 : S12.ShapeCasts S12x1) (h2 : S12x1.Broadcasts S12x512)
    (h3 : S12x512.ShapeCasts S1x12x512) (u : Fin 1) (z : Fin 12) (n : Fin 512) (r : Fin 2048) (hr : r.val = o + n.val) :
    (shapeCast S1x12x512 (addf (matmul dot_S12x128_S512x128_S12x512_1_1_0_0_n_n none v30 (extractStridedSlice S512x128 ![o, 0] v28 hs)
          (constant S12x512 .f32 0x00000000#32)) (broadcastTo S12x512 (shapeCast S12x1 v31 h1) h2)) h3 : FVec Ideal S1x12x512 .f32) (ix3 u z n)
      = (∑ k : Fin 128, v30 (ix2 z k) * v28 (ix2 r k)) + v31 (ix1 z) := by
  refine (shapeCast_ab_1ab_apply _ h3 u z n).trans ?_
  refine congrArg₂ (· + ·) ?_ ?_
  · refine (mm2_apply v30 _ z n).trans (Finset.sum_congr rfl fun k _ => congrArg (v30 (ix2 z k) * ·) ?_)
    exact batchRows_apply v28 o hs n k r hr
  · exact (Cert.LibLayout.broadcastTo_a1_ab_apply _ h2 z n).trans (Cert.LibLayout.shapeCast_a_a1_apply v31 h1 z 0)

/-- With the rectified first layer as the matrix and batch bb's rows cut from it, the slab is the block's formula. -/
theorem slab_out (x0 x1 x2 : Vec Ideal S4x1x512x128 .f32) (x3 : Vec Ideal S128x384 .bf16) (x4 : Vec Ideal S128 .f32)
    (x5 : Vec Ideal S12x128 .bf16) (x6 : Vec Ideal S12 .f32) (bb : Fin 4) (o : Nat) (ho : o = 512 * bb.val)
    (hs : S2048x128.Slices ![o, 0] S512x128) (h1 : S12.ShapeCasts S12x1) (h2 : S12x1.Broadcasts S12x512)
    (h3 : S12x512.ShapeCasts S1x12x512) (u : Fin 1) (z : Fin 12) (n : Fin 512) :
    (shapeCast S1x12x512 (addf (matmul dot_S12x128_S512x128_S12x512_1_1_0_0_n_n none (k0_pay6 x5)
          (extractStridedSlice S512x128 ![o, 0] (k0_pay5 x0 x1 x2 x3 x4) hs) (constant S12x512 .f32 0x00000000#32))
          (broadcastTo S12x512 (shapeCast S12x1 x6 h1) h2)) h3 : FVec Ideal S1x12x512 .f32) (ix3 u z n)
      = outB x0 x1 x2 x3 x4 x5 x6 bb z n := by
  have hr : 512 * bb.val + n.val < 2048 := by have := bb.isLt; have := n.isLt; omega
  refine (slab_apply _ _ x6 o hs h1 h2 h3 u z n ⟨512 * bb.val + n.val, hr⟩ (by show 512 * bb.val + n.val = o + n.val; omega)).trans ?_
  unfold outB
  refine congrArg₂ (· + ·) (Finset.sum_congr rfl fun d _ => congrArg₂ (· * ·) ?_ ?_) rfl
  · unfold k0_pay6; rw [shapeCast_self]
  · exact hidden_apply x0 x1 x2 x3 x4 bb n d hr

/-! ## The four stored slabs -/

theorem slab0_apply (x0 x1 x2 : Vec Ideal S4x1x512x128 .f32) (x3 : Vec Ideal S128x384 .bf16) (x4 : Vec Ideal S128 .f32)
    (x5 : Vec Ideal S12x128 .bf16) (x6 : Vec Ideal S12 .f32) (u : Fin 1) (z : Fin 12) (n : Fin 512) :
    k0_pay1 (k0_pay7 x0 x1 x2 x3 x4 x5) (k0_pay8 x6) (ix3 u z n) = outB x0 x1 x2 x3 x4 x5 x6 (0 : Fin 4) z n := by
  unfold k0_pay1 k0_pay7 k0_pay8
  exact slab_out x0 x1 x2 x3 x4 x5 x6 0 0 rfl _ _ _ _ u z n

theorem slab1_apply (x0 x1 x2 : Vec Ideal S4x1x512x128 .f32) (x3 : Vec Ideal S128x384 .bf16) (x4 : Vec Ideal S128 .f32)
    (x5 : Vec Ideal S12x128 .bf16) (x6 : Vec Ideal S12 .f32) (u : Fin 1) (z : Fin 12) (n : Fin 512) :
    k0_pay2 (k0_pay5 x0 x1 x2 x3 x4) (k0_pay6 x5) x6 (ix3 u z n) = outB x0 x1 x2 x3 x4 x5 x6 (1 : Fin 4) z n := by
  unfold k0_pay2
  exact slab_out x0 x1 x2 x3 x4 x5 x6 1 512 rfl _ _ _ _ u z n

theorem slab2_apply (x0 x1 x2 : Vec Ideal S4x1x512x128 .f32) (x3 : Vec Ideal S128x384 .bf16) (x4 : Vec Ideal S128 .f32)
    (x5 : Vec Ideal S12x128 .bf16) (x6 : Vec Ideal S12 .f32) (u : Fin 1) (z : Fin 12) (n : Fin 512) :
    k0_pay3 (k0_pay5 x0 x1 x2 x3 x4) (k0_pay6 x5) x6 (ix3 u z n) = outB x0 x1 x2 x3 x4 x5 x6 (2 : Fin 4) z n := by
  unfold k0_pay3
  exact slab_out x0 x1 x2 x3 x4 x5 x6 2 1024 rfl _ _ _ _ u z n

theorem slab3_apply (x0 x1 x2 : Vec Ideal S4x1x512x128 .f32) (x3 : Vec Ideal S128x384 .bf16) (x4 : Vec Ideal S128 .f32)
    (x5 : Vec Ideal S12x128 .bf16) (x6 : Vec Ideal S12 .f32) (u : Fin 1) (z : Fin 12) (n : Fin 512) :
    k0_pay4 (k0_pay5 x0 x1 x2 x3 x4) (k0_pay6 x5) x6 (ix3 u z n) = outB x0 x1 x2 x3 x4 x5 x6 (3 : Fin 4) z n := by
  unfold k0_pay4
  exact slab_out x0 x1 x2 x3 x4 x5 x6 3 1536 rfl _ _ _ _ u z n

/-- Slab `bb` of the output block holds its own [1, 12, 512] index (u, z, n) at (bb, z, n). -/
theorem emb_slab (bb : Fin 4) (o : Nat) (ho : o = bb.val) (inb : ∀ a, (![o, 0, 0] : Fin 3 → Nat) a + S1x12x512.size a ≤ S4x12x512.size a)
    (u : Fin 1) (z : Fin 12) (n : Fin 512) :
    (Rect.unit (s := S4x12x512) ![o, 0, 0] S1x12x512.size inb).emb (ix3 u z n) = ix3 bb z n := by
  funext a
  apply Fin.ext
  match a with
  | ⟨0, _⟩ => show o + 1 * u.val = bb.val; omega
  | ⟨1, _⟩ => show 0 + 1 * z.val = z.val; omega
  | ⟨2, _⟩ => show 0 + 1 * n.val = n.val; omega

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The whole output block -/

/-- What the body leaves in the output block is the block's formula at every index. -/
theorem out_block (x0 x1 x2 : Vec Ideal S4x1x512x128 .f32) (x3 : Vec Ideal S128x384 .bf16) (x4 : Vec Ideal S128 .f32)
    (x5 : Vec Ideal S12x128 .bf16) (x6 : Vec Ideal S12 .f32) :
    out0_7 x0 x1 x2 x3 x4 x5 x6 = blockFn x0 x1 x2 x3 x4 x5 x6 := by
  funext y
  unfold out0_7
  simp only [View.ld_unit_zero (S := S4x1x512x128) hz4, View.ld_unit_zero (S := S128x384) hz2,
    View.ld_unit_zero (S := S128) hz1, View.ld_unit_zero (S := S12x128) hz2, View.ld_unit_zero (S := S12) hz1]
  refine View.canon_apply_of_pieces (Val := Elt Ideal) (blockFn x0 x1 x2 x3 x4 x5 x6) _ ?_ y (cover0_7 _ _ _ _ y)
  intro p hp x
  simp only [List.mem_cons, List.mem_nil_iff, or_false] at hp
  rcases hp with rfl | rfl | rfl | rfl
  · obtain ⟨u, z, n, rfl⟩ : ∃ (u : Fin 1) (z : Fin 12) (n : Fin 512), x = ix3 u z n := ⟨x 0, x 1, x 2, eq_ix3 x⟩
    exact (slab3_apply x0 x1 x2 x3 x4 x5 x6 u z n).trans (congrArg (blockFn x0 x1 x2 x3 x4 x5 x6) (emb_slab 3 3 rfl inb_S4x12x512_S1x12x512_3_0_0 u z n)).symm
  · obtain ⟨u, z, n, rfl⟩ : ∃ (u : Fin 1) (z : Fin 12) (n : Fin 512), x = ix3 u z n := ⟨x 0, x 1, x 2, eq_ix3 x⟩
    exact (slab2_apply x0 x1 x2 x3 x4 x5 x6 u z n).trans (congrArg (blockFn x0 x1 x2 x3 x4 x5 x6) (emb_slab 2 2 rfl inb_S4x12x512_S1x12x512_2_0_0 u z n)).symm
  · obtain ⟨u, z, n, rfl⟩ : ∃ (u : Fin 1) (z : Fin 12) (n : Fin 512), x = ix3 u z n := ⟨x 0, x 1, x 2, eq_ix3 x⟩
    exact (slab1_apply x0 x1 x2 x3 x4 x5 x6 u z n).trans (congrArg (blockFn x0 x1 x2 x3 x4 x5 x6) (emb_slab 1 1 rfl inb_S4x12x512_S1x12x512_1_0_0 u z n)).symm
  · obtain ⟨u, z, n, rfl⟩ : ∃ (u : Fin 1) (z : Fin 12) (n : Fin 512), x = ix3 u z n := ⟨x 0, x 1, x 2, eq_ix3 x⟩
    exact (slab0_apply x0 x1 x2 x3 x4 x5 x6 u z n).trans (congrArg (blockFn x0 x1 x2 x3 x4 x5 x6) (emb_slab 0 0 rfl inb_S4x12x512_S1x12x512_0_0_0 u z n)).symm

/-! ## A block's formula is the whole arrays' formula -/

/-- When batch `bb` of the block's tensors is batch `B` of the whole tensors at time step 23 and the block's weights and
    biases are the whole ones, the block's formula at (bb, z, n) is the specification's at (B, z, n). -/
theorem outB_eq_out (X0 X1 X2 : (⟨4, ![16, 24, 512, 128]⟩ : Shape).Idx → EReal) (W1 : (⟨2, ![128, 384]⟩ : Shape).Idx → EReal)
    (b1 : (⟨1, ![128]⟩ : Shape).Idx → EReal) (W2 : (⟨2, ![12, 128]⟩ : Shape).Idx → EReal) (b2 : (⟨1, ![12]⟩ : Shape).Idx → EReal)
    (x0 x1 x2 : S4x1x512x128.Idx → EReal) (x3 : S128x384.Idx → EReal) (x4 : S128.Idx → EReal) (x5 : S12x128.Idx → EReal)
    (x6 : S12.Idx → EReal) (bb : Fin 4) (B : Fin 16)
    (h0 : ∀ (n : Fin 512) (k : Fin 128), x0 (ix4 bb (0 : Fin 1) n k) = X0 (ix4 B (23 : Fin 24) n k))
    (h1 : ∀ (n : Fin 512) (k : Fin 128), x1 (ix4 bb (0 : Fin 1) n k) = X1 (ix4 B (23 : Fin 24) n k))
    (h2 : ∀ (n : Fin 512) (k : Fin 128), x2 (ix4 bb (0 : Fin 1) n k) = X2 (ix4 B (23 : Fin 24) n k))
    (h3 : x3 = W1) (h4 : x4 = b1) (h5 : x5 = W2) (h6 : x6 = b2) (z : Fin 12) (n : Fin 512) :
    outB x0 x1 x2 x3 x4 x5 x6 bb z n = out X0 X1 X2 W1 b1 W2 b2 B z n := by
  subst h3 h4 h5 h6
  unfold outB out preB pre
  simp only [h0, h1, h2]

end Cert.Mlp.Block

end
-- ==== Proof.KernelArray.lean ====
/-
  From the grid's blocks to the whole result.

  The grid has four points; point t works on batches 4t … 4t+3.  Each tensor's window is the block of those four batches
  at time step 23 (all 512 nodes, all 128 features); the weights and biases are whole at every point; the output window
  is the block of those four batches of the [16, 12, 512] array.  So what point t writes back is block t of the
  specification's array, the four blocks tile the array, and after the run the array is the specification's.  The host
  then gives it a trailing unit axis.  The two weight matrices reach the region through a change of float format, which
  on the extended reals is the identity.
-/
import proofs.«143476_j54640573939741_2_alg».proof.Proof.Gen.KernelIdeal.Frame
import proofs.«143476_j54640573939741_2_alg».proof.Proof.KernelBlock
import Idealize.ShloMosaic.Lib.Pipeline.Value
import Idealize.ShloMosaic.Lib.StableHlo.Run
import Idealize.ShloMosaic.Lib.Tactic

noncomputable section

namespace Cert.Mlp.Array

open Cert.KernelIdeal Cert.KernelIdeal.Gen Idealize.ShloMosaic Idealize.ShloMosaic.TcCoe Idealize.SL.Sem
open Idealize.ShloMosaic.ValueIdx Cert.Mlp Cert.Mlp.Block
open Idealize.ShloMosaic.Pipeline (Dat)

variable (m : (ℓ : Loc nD τ sig) → Buf (Elt Ideal) ℓ) (ρ : Dev nD → PrngReg)

/-! ## The index maps over the four grid points -/

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx0 : ∀ t : Fin cfg0.N, win0_0.index t (0 : Fin 4) = t.val ∧ win0_0.index t (1 : Fin 4) = 23
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val ∧ win0_1.index t (1 : Fin 4) = 23
    ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val ∧ win0_2.index t (1 : Fin 4) = 23
    ∧ win0_2.index t (2 : Fin 4) = 0 ∧ win0_2.index t (3 : Fin 4) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)

/-! ## Each window's block read off its array -/

/-- Batch `bb` of a tensor's block at point `t` is batch 4t + bb of the tensor at time step 23. -/
theorem blk0 (c : Dev nD) (t : Fin cfg0.N) (bb : Fin 4) (B : Fin 16) (hB : B.val = 4 * t.val + bb.val) (n : Fin 512) (k : Fin 128) :
    (iblk m c 0 t : S4x1x512x128.Idx → EReal) (ix4 bb (0 : Fin 1) n k)
      = (V m c main_arg0 : S16x24x512x128.Idx → EReal) (ix4 B (23 : Fin 24) n k) := by
  obtain ⟨e0, e1, e2, e3⟩ := idx0 t
  show V m c main_arg0 (((cfg0.win 0).blk t).view.emb (ix4 bb (0 : Fin 1) n k)) = _
  refine congrArg (V m c main_arg0) (funext fun a => Fin.ext ?_)
  match a with
  | ⟨0, _⟩ => show win0_0.index t (0 : Fin 4) * 4 + 1 * bb.val = B.val; omega
  | ⟨1, _⟩ => show win0_0.index t (1 : Fin 4) * 1 + 1 * 0 = 23; omega
  | ⟨2, _⟩ => show win0_0.index t (2 : Fin 4) * 512 + 1 * n.val = n.val; omega
  | ⟨3, _⟩ => show win0_0.index t (3 : Fin 4) * 128 + 1 * k.val = k.val; omega

theorem blk1 (c : Dev nD) (t : Fin cfg0.N) (bb : Fin 4) (B : Fin 16) (hB : B.val = 4 * t.val + bb.val) (n : Fin 512) (k : Fin 128) :
    (iblk m c 1 t : S4x1x512x128.Idx → EReal) (ix4 bb (0 : Fin 1) n k)
      = (V m c main_arg1 : S16x24x512x128.Idx → EReal) (ix4 B (23 : Fin 24) n k) := by
  obtain ⟨e0, e1, e2, e3⟩ := idx1 t
  show V m c main_arg1 (((cfg0.win 1).blk t).view.emb (ix4 bb (0 : Fin 1) n k)) = _
  refine congrArg (V m c main_arg1) (funext fun a => Fin.ext ?_)
  match a with
  | ⟨0, _⟩ => show win0_1.index t (0 : Fin 4) * 4 + 1 * bb.val = B.val; omega
  | ⟨1, _⟩ => show win0_1.index t (1 : Fin 4) * 1 + 1 * 0 = 23; omega
  | ⟨2, _⟩ => show win0_1.index t (2 : Fin 4) * 512 + 1 * n.val = n.val; omega
  | ⟨3, _⟩ => show win0_1.index t (3 : Fin 4) * 128 + 1 * k.val = k.val; omega

theorem blk2 (c : Dev nD) (t : Fin cfg0.N) (bb : Fin 4) (B : Fin 16) (hB : B.val = 4 * t.val + bb.val) (n : Fin 512) (k : Fin 128) :
    (iblk m c 2 t : S4x1x512x128.Idx → EReal) (ix4 bb (0 : Fin 1) n k)
      = (V m c main_arg2 : S16x24x512x128.Idx → EReal) (ix4 B (23 : Fin 24) n k) := by
  obtain ⟨e0, e1, e2, e3⟩ := idx2 t
  show V m c main_arg2 (((cfg0.win 2).blk t).view.emb (ix4 bb (0 : Fin 1) n k)) = _
  refine congrArg (V m c main_arg2) (funext fun a => Fin.ext ?_)
  match a with
  | ⟨0, _⟩ => show win0_2.index t (0 : Fin 4) * 4 + 1 * bb.val = B.val; omega
  | ⟨1, _⟩ => show win0_2.index t (1 : Fin 4) * 1 + 1 * 0 = 23; omega
  | ⟨2, _⟩ => show win0_2.index t (2 : Fin 4) * 512 + 1 * n.val = n.val; omega
  | ⟨3, _⟩ => show win0_2.index t (3 : Fin 4) * 128 + 1 * k.val = k.val; omega

/-- The weights' and biases' blocks are the whole arrays at every point. -/
theorem blk3 (c : Dev nD) (t : Fin cfg0.N) : (iblk m c 3 t : S128x384.Idx → EReal) = V m c main_v0 := by
  obtain ⟨e0, e1⟩ := idx3 t
  funext j
  show V m c main_v0 (((cfg0.win 3).blk t).view.emb j) = V m c main_v0 j
  refine congrArg (V m c main_v0) (funext fun a => Fin.ext ?_)
  match a with
  | ⟨0, _⟩ => show win0_3.index t (0 : Fin 2) * 128 + 1 * (j 0).val = (j 0).val; omega
  | ⟨1, _⟩ => show win0_3.index t (1 : Fin 2) * 384 + 1 * (j 1).val = (j 1).val; omega

theorem blk4 (c : Dev nD) (t : Fin cfg0.N) : (iblk m c 4 t : S128.Idx → EReal) = V m c main_arg4 := by
  have e0 := idx4 t
  funext j
  show V m c main_arg4 (((cfg0.win 4).blk t).view.emb j) = V m c main_arg4 j
  refine congrArg (V m c main_arg4) (funext fun a => Fin.ext ?_)
  match a with
  | ⟨0, _⟩ => show win0_4.index t (0 : Fin 1) * 128 + 1 * (j 0).val = (j 0).val; omega

theorem blk5 (c : Dev nD) (t : Fin cfg0.N) : (iblk m c 5 t : S12x128.Idx → EReal) = V m c main_v1 := by
  obtain ⟨e0, e1⟩ := idx5 t
  funext j
  show V m c main_v1 (((cfg0.win 5).blk t).view.emb j) = V m c main_v1 j
  refine congrArg (V m c main_v1) (funext fun a => Fin.ext ?_)
  match a with
  | ⟨0, _⟩ => show win0_5.index t (0 : Fin 2) * 12 + 1 * (j 0).val = (j 0).val; omega
  | ⟨1, _⟩ => show win0_5.index t (1 : Fin 2) * 128 + 1 * (j 1).val = (j 1).val; omega

theorem blk6 (c : Dev nD) (t : Fin cfg0.N) : (iblk m c 6 t : S12.Idx → EReal) = V m c main_arg6 := by
  have e0 := idx6 t
  funext j
  show V m c main_arg6 (((cfg0.win 6).blk t).view.emb j) = V m c main_arg6 j
  refine congrArg (V m c main_arg6) (funext fun a => Fin.ext ?_)
  match a with
  | ⟨0, _⟩ => show win0_6.index t (0 : Fin 1) * 12 + 1 * (j 0).val = (j 0).val; omega

/-! ## What each point writes back, and the array after the run -/

/-- The specification's [16, 12, 512] array of the arrays as the region finds them. -/
abbrev GV (c : Dev nD) : S16x12x512.Idx → EReal :=
  G3 (V m c main_arg0) (V m c main_arg1) (V m c main_arg2) (V m c main_v0) (V m c main_arg4) (V m c main_v1) (V m c main_arg6)

/-- Point `t` writes back block `t` of that array. -/
theorem flushed_eq (c : Dev nD) (t : Fin cfg0.N) :
    (dats m 0 c).flushed 7 t = ((cfg0.win 7).blk t).view.read (Elt Ideal) (GV m c) := by
  show (cfg0.win 7).cut (grid0.coords t) ((dats m 0 c).after 7 t) = _
  rw [after0_7, out_block]
  obtain ⟨e0, e1, e2⟩ := idx7 t
  have ht : t.val < 4 := Nat.lt_of_lt_of_eq t.isLt N_0
  funext y
  have hy0 : (y 0).val < 4 := (y 0).isLt
  have hB : 4 * t.val + (y 0).val < 16 := by omega
  show outB (iblk m c 0 t) (iblk m c 1 t) (iblk m c 2 t) (iblk m c 3 t) (iblk m c 4 t) (iblk m c 5 t) (iblk m c 6 t) (y 0) (y 1) (y 2)
    = GV m c (((cfg0.win 7).blk t).view.emb y)
  refine (outB_eq_out (V m c main_arg0) (V m c main_arg1) (V m c main_arg2) (V m c main_v0) (V m c main_arg4) (V m c main_v1)
    (V m c main_arg6) (iblk m c 0 t) (iblk m c 1 t) (iblk m c 2 t) (iblk m c 3 t) (iblk m c 4 t) (iblk m c 5 t) (iblk m c 6 t)
    (y 0) ⟨4 * t.val + (y 0).val, hB⟩ (fun n k => blk0 m c t (y 0) _ rfl n k) (fun n k => blk1 m c t (y 0) _ rfl n k)
    (fun n k => blk2 m c t (y 0) _ rfl n k) (blk3 m c t) (blk4 m c t) (blk5 m c t) (blk6 m c t) (y 1) (y 2)).trans ?_
  show GV m c (ix3 (⟨4 * t.val + (y 0).val, hB⟩ : Fin 16) (y 1) (y 2)) = GV m c (((cfg0.win 7).blk t).view.emb y)
  refine congrArg (GV m c) (funext fun a => Fin.ext ?_)
  match a with
  | ⟨0, _⟩ => show 4 * t.val + (y 0).val = win0_7.index t (0 : Fin 3) * 4 + 1 * (y 0).val; omega
  | ⟨1, _⟩ => show (y 1).val = win0_7.index t (1 : Fin 3) * 12 + 1 * (y 1).val; omega
  | ⟨2, _⟩ => show (y 2).val = win0_7.index t (2 : Fin 3) * 512 + 1 * (y 2).val; omega

/-- An index of the array is in point `t`'s block iff each coordinate is in the block's range on its axis. -/
theorem mem_blk (t : Fin cfg0.N) (i : S16x12x512.Idx) :
    i ∈ ((cfg0.win 7).blk t).view.set ↔ ∀ a : Fin 3, win0_7.index t a * S4x12x512.size a ≤ (i a).val
      ∧ (i a).val < win0_7.index t a * S4x12x512.size a + S4x12x512.size a := by
  show i ∈ ((View.whole main_v2).slice (win0_7.rect t)).set ↔ _
  rw [View.set_slice_whole, Rect.mem_set_unit]
  exact Iff.rfl

/-- The four blocks tile the array: batch B lies in the block of point B / 4. -/
theorem cover (i : S16x12x512.Idx) : ∃ t : Fin cfg0.N, (cfg0.win 7).flush t = true ∧ i ∈ ((cfg0.win 7).blk t).view.set := by
  have hi0 : (i 0).val < 16 := (i 0).isLt
  have hi1 : (i 1).val < 12 := (i 1).isLt
  have hi2 : (i 2).val < 512 := (i 2).isLt
  obtain ⟨t, ht⟩ : ∃ t : Fin cfg0.N, t.val = (i 0).val / 4 :=
    ⟨⟨(i 0).val / 4, Nat.lt_of_lt_of_eq (by omega : (i 0).val / 4 < 4) N_0.symm⟩, rfl⟩
  obtain ⟨e0, e1, e2⟩ := idx7 t
  refine ⟨t, flush0_7 t, ?_⟩
  rw [mem_blk]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 12 ≤ (i 1).val ∧ (i 1).val < win0_7.index t (1 : Fin 3) * 12 + 12; omega
  | ⟨2, _⟩ => show win0_7.index t (2 : Fin 3) * 512 ≤ (i 2).val ∧ (i 2).val < win0_7.index t (2 : Fin 3) * 512 + 512; omega

/-- After the run the output array is the specification's array of the arrays as the region finds them. -/
theorem final (c : Dev nD) : (dats m 0 c).arrAt 7 cfg0.N = GV m c :=
  (dats m 0 c).arrAt_eq_of_cover 7 (GV m c) (fun t _ => flushed_eq m c t) cover

/-! ## The host lines before and after the region -/

/-- The first weight matrix reaches the region through a change of float format: the identity on the extended reals. -/
theorem V_v0 (c : Dev nD) : (V m c main_v0 : S128x384.Idx → EReal) = m ((c : Thread nD τ).loc main_arg3) := by
  show StableHlo.after hostOps0 (fun b => m (c, b)) (Proc.devRef .tc main_v0) = _
  after_results
  rfl

/-- The same for the second weight matrix. -/
theorem V_v1 (c : Dev nD) : (V m c main_v1 : S12x128.Idx → EReal) = m ((c : Thread nD τ).loc main_arg5) := by
  show StableHlo.after hostOps0 (fun b => m (c, b)) (Proc.devRef .tc main_v1) = _
  after_results
  rfl

/-- So the array after the run is the specification's array of the launch contents. -/
theorem GV_eq (c : Dev nD) : GV m c = G3 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  show G3 (V m c main_arg0) (V m c main_arg1) (V m c main_arg2) (V m c main_v0) (V m c main_arg4) (V m c main_v1) (V m c main_arg6) = _
  rw [V_main_arg0, V_main_arg1, V_main_arg2, V_v0, V_main_arg4, V_v1, V_main_arg6]

/-- The result with its trailing unit axis. -/
theorem tail_eq (c : Dev nD) :
    Pipeline.afterTail₀ cfgs (dats m) 0 (V0 m) [hostOps1] c main_v3
      = G4 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = GV m c := (Pipeline.withArrays_arr spec0 launch0.win.arr_inj c _ _ 7).trans (final m c)
  rw [hw, GV_eq]
  funext i
  obtain ⟨b, z, n, u, rfl⟩ : ∃ (b : Fin 16) (z : Fin 12) (n : Fin 512) (u : Fin 1), i = ix4 b z n u := ⟨i 0, i 1, i 2, i 3, eq_ix4 i⟩
  rw [G4_apply]
  refine (broadcastInDim_apply _ bcast_S16x12x512_S16x12x512x1_0_1_2 _ (ix4 b z n u) (ix3 b z n) (fun a => ?_)).trans (G3_apply _ _ _ _ _ _ _ b z n)
  match a with
  | ⟨0, _⟩ => show b.val = if (16 : Nat) = 1 then 0 else b.val; rw [if_neg (by decide)]
  | ⟨1, _⟩ => show z.val = if (12 : Nat) = 1 then 0 else z.val; rw [if_neg (by decide)]
  | ⟨2, _⟩ => show n.val = if (512 : Nat) = 1 then 0 else n.val; rw [if_neg (by decide)]

/-! ## The run, read -/

/-- Every weakly fair execution of the kernel's program ends with the result at the specification's array of the launch
    contents and the seven arguments unchanged. -/
theorem run : θ_run defs (onTc (τ := τ) (main (F := Ideal))) ⟨m, fun _ => 0, ρ⟩ fun r => ∀ c : Dev nD,
      r.2.mem ((c.tc : Thread nD τ).loc main_v3)
        = G4 (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.Mlp.Array

end
-- ==== Proof.RefSide.lean ====
/-
  The reference program read stage by stage down to the two-layer perceptron of the specification: the three time-step
  slices, their concatenation along the feature axis, the first product with its bias, the leaky rectifier, the second
  product with its bias, and the final reshape and transpose.  Only associativity and commutativity of + and
  commutativity of · on the extended reals are used.
-/
import proofs.«143476_j54640573939741_2_alg».proof.Proof.Gen.ReferenceIdeal.Read
import proofs.«143476_j54640573939741_2_alg».proof.Proof.Spec

noncomputable section

namespace Cert.Mlp.Ref

open Cert.ReferenceIdeal Cert.ReferenceIdeal.Gen Cert.ReferenceIdeal.Read Idealize.ShloMosaic Idealize.ShloMosaic.ValueIdx Cert.Mlp
open scoped BigOperators

/-- The slice of time step 23 followed by the reshape dropping the unit axis reads the tensor at (b, 23, n, c). -/
theorem slice_idx (b : Fin 16) (n : Fin 512) (c : Fin 128) :
    idx_main_v0 (idx_main_v1 (ix3 b n c)) = ix4 b (23 : Fin 24) n c := by
  funext a
  apply Fin.ext
  have hb := b.isLt; have hn := n.isLt; have hc := c.isLt
  match a with
  | ⟨0, _⟩ => show ((b.val * 512 + n.val) * 128 + c.val) / 65536 = b.val; omega
  | ⟨1, _⟩ => rfl
  | ⟨2, _⟩ => show ((b.val * 512 + n.val) * 128 + c.val) / 128 % 512 = n.val; omega
  | ⟨3, _⟩ => show ((b.val * 512 + n.val) * 128 + c.val) % 128 = c.val; omega

theorem v1_read (X : (⟨S16x24x512x128, .f32⟩ : BufTy).Contents (Elt Ideal)) (b : Fin 16) (n : Fin 512) (c : Fin 128) :
    val_main_v1 (F := Ideal) X (ix3 b n c) = X (ix4 b (23 : Fin 24) n c) := by
  rw [val_main_v1_apply, val_main_v0_apply, slice_idx]

theorem v3_read (X : (⟨S16x24x512x128, .f32⟩ : BufTy).Contents (Elt Ideal)) (b : Fin 16) (n : Fin 512) (c : Fin 128) :
    val_main_v3 (F := Ideal) X (ix3 b n c) = X (ix4 b (23 : Fin 24) n c) := by
  rw [val_main_v3_apply, val_main_v2_apply]
  exact congrArg X (slice_idx b n c)

theorem v5_read (X : (⟨S16x24x512x128, .f32⟩ : BufTy).Contents (Elt Ideal)) (b : Fin 16) (n : Fin 512) (c : Fin 128) :
    val_main_v5 (F := Ideal) X (ix3 b n c) = X (ix4 b (23 : Fin 24) n c) := by
  rw [val_main_v5_apply, val_main_v4_apply]
  exact congrArg X (slice_idx b n c)

/-- The concatenation at a feature coordinate in the first run of 128 is the first piece. -/
theorem v6_read0 (X0 X1 X2 : (⟨S16x24x512x128, .f32⟩ : BufTy).Contents (Elt Ideal)) (b : Fin 16) (n : Fin 512) (c : Fin 128) :
    val_main_v6 (F := Ideal) X0 X1 X2 (ix3 b n (⟨c.val, by omega⟩ : Fin 384)) = val_main_v1 (F := Ideal) X0 (ix3 b n c) := by
  unfold val_main_v6
  exact concatenate_apply_piece (2 : Fin S16x512x384.rank) _ _ _ 0 (by show (0 : Nat) < 3; omega) S16x512x128 _ rfl rfl 0 rfl (ix3 b n c)
    (fun a ha => by
      match a with
      | ⟨0, _⟩ => rfl
      | ⟨1, _⟩ => rfl
      | ⟨2, _⟩ => exact absurd (Fin.ext rfl) ha)
    (by show 0 + c.val = c.val; omega)

/-- … in the second run, the second piece … -/
theorem v6_read1 (X0 X1 X2 : (⟨S16x24x512x128, .f32⟩ : BufTy).Contents (Elt Ideal)) (b : Fin 16) (n : Fin 512) (c : Fin 128) :
    val_main_v6 (F := Ideal) X0 X1 X2 (ix3 b n (⟨128 + c.val, by omega⟩ : Fin 384)) = val_main_v3 (F := Ideal) X1 (ix3 b n c) := by
  unfold val_main_v6
  exact concatenate_apply_piece (2 : Fin S16x512x384.rank) _ _ _ 1 (by show (1 : Nat) < 3; omega) S16x512x128 _ rfl rfl 128 rfl (ix3 b n c)
    (fun a ha => by
      match a with
      | ⟨0, _⟩ => rfl
      | ⟨1, _⟩ => rfl
      | ⟨2, _⟩ => exact absurd (Fin.ext rfl) ha)
    rfl

/-- … and in the third run, the third piece. -/
theorem v6_read2 (X0 X1 X2 : (⟨S16x24x512x128, .f32⟩ : BufTy).Contents (Elt Ideal)) (b : Fin 16) (n : Fin 512) (c : Fin 128) :
    val_main_v6 (F := Ideal) X0 X1 X2 (ix3 b n (⟨256 + c.val, by omega⟩ : Fin 384)) = val_main_v5 (F := Ideal) X2 (ix3 b n c) := by
  unfold val_main_v6
  exact concatenate_apply_piece (2 : Fin S16x512x384.rank) _ _ _ 2 (by show (2 : Nat) < 3; omega) S16x512x128 _ rfl rfl 256 rfl (ix3 b n c)
    (fun a ha => by
      match a with
      | ⟨0, _⟩ => rfl
      | ⟨1, _⟩ => rfl
      | ⟨2, _⟩ => exact absurd (Fin.ext rfl) ha)
    rfl

/-- The left operand's index of the first product, by coordinates. -/
theorem lidx7 (b : Fin 16) (n : Fin 512) (d : Fin 128) (k : Fin 384) : lidx_main_v7 (ix3 b n d) k = ix3 b n k := by
  funext a
  match a with
  | ⟨0, _⟩ => rfl
  | ⟨1, _⟩ => rfl
  | ⟨2, _⟩ => rfl

/-- The right operand's index of the first product, by coordinates. -/
theorem ridx7 (b : Fin 16) (n : Fin 512) (d : Fin 128) (k : Fin 384) : ridx_main_v7 (ix3 b n d) k = ix2 d k := by
  funext a
  match a with
  | ⟨0, _⟩ => rfl
  | ⟨1, _⟩ => rfl

/-- The bias of the first layer broadcast to (b, n, d) is b1[d]. -/
theorem v9_read (b1 : (⟨S128, .f32⟩ : BufTy).Contents (Elt Ideal)) (b : Fin 16) (n : Fin 512) (d : Fin 128) :
    val_main_v9 (F := Ideal) b1 (ix3 b n d) = b1 (ix1 d) := by
  rw [val_main_v9_apply, val_main_v8_apply]
  refine congrArg b1 (funext fun a => ?_)
  match a with
  | ⟨0, _⟩ => rfl

/-- The first layer before the rectifier: the 384-term product split into its three runs of 128, each run read from
    its own tensor at time step 23, then the bias. -/
theorem v10_read (X0 X1 X2 : (⟨S16x24x512x128, .f32⟩ : BufTy).Contents (Elt Ideal)) (W1 : (⟨S128x384, .f32⟩ : BufTy).Contents (Elt Ideal))
    (b1 : (⟨S128, .f32⟩ : BufTy).Contents (Elt Ideal)) (b : Fin 16) (n : Fin 512) (d : Fin 128) :
    val_main_v10 (F := Ideal) X0 X1 X2 W1 b1 (ix3 b n d) = pre X0 X1 X2 W1 b1 b n d := by
  rw [val_main_v10_apply]
  show val_main_v7 (F := Ideal) X0 X1 X2 W1 (ix3 b n d) + val_main_v9 (F := Ideal) b1 (ix3 b n d) = pre X0 X1 X2 W1 b1 b n d
  rw [v9_read, val_main_v7_apply, sum_384_runs]
  unfold pre
  refine congrArg₂ (· + ·) (congrArg₂ (· + ·) (congrArg₂ (· + ·) ?_ ?_) ?_) rfl <;>
    refine Finset.sum_congr rfl fun c _ => ?_
  · show val_main_v6 (F := Ideal) X0 X1 X2 (lidx_main_v7 (ix3 b n d) ⟨c.val, by omega⟩) * W1 (ridx_main_v7 (ix3 b n d) ⟨c.val, by omega⟩) = _
    rw [lidx7, ridx7, v6_read0, v1_read]
  · show val_main_v6 (F := Ideal) X0 X1 X2 (lidx_main_v7 (ix3 b n d) ⟨128 + c.val, by omega⟩) * W1 (ridx_main_v7 (ix3 b n d) ⟨128 + c.val, by omega⟩) = _
    rw [lidx7, ridx7, v6_read1, v3_read]
  · show val_main_v6 (F := Ideal) X0 X1 X2 (lidx_main_v7 (ix3 b n d) ⟨256 + c.val, by omega⟩) * W1 (ridx_main_v7 (ix3 b n d) ⟨256 + c.val, by omega⟩) = _
    rw [lidx7, ridx7, v6_read2, v5_read]

/-- The hidden value: the comparison with zero and the choice between the value and the slope times it. -/
theorem v15_read (X0 X1 X2 : (⟨S16x24x512x128, .f32⟩ : BufTy).Contents (Elt Ideal)) (W1 : (⟨S128x384, .f32⟩ : BufTy).Contents (Elt Ideal))
    (b1 : (⟨S128, .f32⟩ : BufTy).Contents (Elt Ideal)) (b : Fin 16) (n : Fin 512) (d : Fin 128) :
    val_main_v15 (F := Ideal) X0 X1 X2 W1 b1 (ix3 b n d) = leaky (pre X0 X1 X2 W1 b1 b n d) := by
  rw [val_main_v15_apply, val_main_v12_apply, val_main_v14_apply, val_main_v11_apply, val_main_v13_apply,
    val_main_cst_apply, val_main_cst_0_apply, v10_read]
  rfl

/-- The left operand's index of the second product, by coordinates. -/
theorem lidx16 (b : Fin 16) (n : Fin 512) (z : Fin 12) (k : Fin 128) : lidx_main_v16 (ix3 b n z) k = ix3 b n k := by
  funext a
  match a with
  | ⟨0, _⟩ => rfl
  | ⟨1, _⟩ => rfl
  | ⟨2, _⟩ => rfl

/-- The right operand's index of the second product, by coordinates. -/
theorem ridx16 (b : Fin 16) (n : Fin 512) (z : Fin 12) (k : Fin 128) : ridx_main_v16 (ix3 b n z) k = ix2 z k := by
  funext a
  match a with
  | ⟨0, _⟩ => rfl
  | ⟨1, _⟩ => rfl

/-- The bias of the second layer broadcast to (b, n, z) is b2[z]. -/
theorem v18_read (b2 : (⟨S12, .f32⟩ : BufTy).Contents (Elt Ideal)) (b : Fin 16) (n : Fin 512) (z : Fin 12) :
    val_main_v18 (F := Ideal) b2 (ix3 b n z) = b2 (ix1 z) := by
  rw [val_main_v18_apply, val_main_v17_apply]
  refine congrArg b2 (funext fun a => ?_)
  match a with
  | ⟨0, _⟩ => rfl

/-- The second layer at (b, n, z): the product over the 128 hidden units, factors commuted, then the bias. -/
theorem v19_read (X0 X1 X2 : (⟨S16x24x512x128, .f32⟩ : BufTy).Contents (Elt Ideal)) (W1 : (⟨S128x384, .f32⟩ : BufTy).Contents (Elt Ideal))
    (b1 : (⟨S128, .f32⟩ : BufTy).Contents (Elt Ideal)) (W2 : (⟨S12x128, .f32⟩ : BufTy).Contents (Elt Ideal)) (b2 : (⟨S12, .f32⟩ : BufTy).Contents (Elt Ideal))
    (b : Fin 16) (n : Fin 512) (z : Fin 12) :
    val_main_v19 (F := Ideal) X0 X1 X2 W1 b1 W2 b2 (ix3 b n z) = out X0 X1 X2 W1 b1 W2 b2 b z n := by
  rw [val_main_v19_apply]
  show val_main_v16 (F := Ideal) X0 X1 X2 W1 b1 W2 (ix3 b n z) + val_main_v18 (F := Ideal) b2 (ix3 b n z) = out X0 X1 X2 W1 b1 W2 b2 b z n
  rw [v18_read, val_main_v16_apply]
  unfold out
  refine congrArg₂ (· + ·) (Finset.sum_congr rfl fun d _ => ?_) rfl
  rw [lidx16, ridx16, v15_read]
  exact mul_comm _ _

/-- The reshape adding a unit axis followed by the transpose of the node and output axes reads (b, n, z). -/
theorem tail_idx (b : Fin 16) (z : Fin 12) (n : Fin 512) (u : Fin 1) :
    idx_main_v20 (idx_main_v21 (ix4 b z n u)) = ix3 b n z := by
  funext a
  apply Fin.ext
  have hb := b.isLt; have hn := n.isLt; have hz := z.isLt; have hu := u.isLt
  match a with
  | ⟨0, _⟩ => show (((b.val * 512 + n.val) * 12 + z.val) * 1 + u.val) / 6144 = b.val; omega
  | ⟨1, _⟩ => show (((b.val * 512 + n.val) * 12 + z.val) * 1 + u.val) / 12 % 512 = n.val; omega
  | ⟨2, _⟩ => show (((b.val * 512 + n.val) * 12 + z.val) * 1 + u.val) % 12 = z.val; omega

/-- The reference program's result is the specification's array. -/
theorem ref_eq (X0 X1 X2 : (⟨S16x24x512x128, .f32⟩ : BufTy).Contents (Elt Ideal)) (W1 : (⟨S128x384, .f32⟩ : BufTy).Contents (Elt Ideal))
    (b1 : (⟨S128, .f32⟩ : BufTy).Contents (Elt Ideal)) (W2 : (⟨S12x128, .f32⟩ : BufTy).Contents (Elt Ideal)) (b2 : (⟨S12, .f32⟩ : BufTy).Contents (Elt Ideal)) :
    val_main_v21 (F := Ideal) X0 X1 X2 W1 b1 W2 b2 = Cert.Mlp.G4 X0 X1 X2 W1 b1 W2 b2 := by
  funext i
  obtain ⟨b, z, n, u, rfl⟩ : ∃ b z n u, i = ix4 b z n u := ⟨i 0, i 1, i 2, i 3, eq_ix4 i⟩
  rw [val_main_v21_apply, val_main_v20_apply, tail_idx, v19_read, G4_apply]

end Cert.Mlp.Ref

end
-- ==== Proof.lean ====
/-
  The certificate of a fused two-layer perceptron kernel against its plain reference, on the extended reals.

  Both programs take three feature tensors [16, 24, 512, 128], a first weight matrix [128, 384] with its bias [128] and
  a second weight matrix [12, 128] with its bias [12], read only time step 23 of the tensors, and return the array
  [16, 12, 512, 1] whose entry (b, z, n, 0) is

      Σ_d W2[z,d] · leaky (Σ_{k<384} cat[b,n,k] · W1[d,k] + b1[d]) + b2[z],

  where cat[b,n,·] sets the three tensors' 128 features at (b, 23, n) side by side and leaky is the rectifier with slope
  the f32 word 0x3C23D70A below zero.  The reference does this with one concatenation and two whole matrix products.
  The kernel walks a grid of four points, four batches per point; it never forms the concatenation but adds three
  products, one per tensor, against the three 128-column runs of W1, and computes the second layer one batch at a time
  with the factors in the other order, writing the result already in the [b, z, n] layout.  The two agree because a sum
  over 384 terms is the sum of its three runs of 128 and because · commutes: laws of the extended reals that need no
  finiteness, so the precondition is never opened.  The changes of float format on the kernel's side are the identity on
  the extended reals.

  Proof/Spec.lean states the formula and the law about the 384-term sum; Proof/RefSide.lean reads the reference's stages
  down to it; Proof/KernelBlock.lean reads what one grid point stores, entry by entry; Proof/KernelArray.lean goes from
  the four blocks to the whole array and through the host lines around the region.  Here the five claims are assembled.
-/
import proofs.«143476_j54640573939741_2_alg».proof.Defs
import proofs.«143476_j54640573939741_2_alg».proof.Proof.Gen.Kernel
import proofs.«143476_j54640573939741_2_alg».proof.Proof.Gen.Kernel.Skeleton
import proofs.«143476_j54640573939741_2_alg».proof.Proof.Gen.Kernel.Launch
import proofs.«143476_j54640573939741_2_alg».proof.Proof.Gen.Kernel.Points
import proofs.«143476_j54640573939741_2_alg».proof.Proof.Gen.Kernel.Frame
import proofs.«143476_j54640573939741_2_alg».proof.Proof.Gen.KernelIdeal
import proofs.«143476_j54640573939741_2_alg».proof.Proof.Gen.KernelIdeal.Skeleton
import proofs.«143476_j54640573939741_2_alg».proof.Proof.Gen.KernelIdeal.Launch
import proofs.«143476_j54640573939741_2_alg».proof.Proof.Gen.KernelIdeal.Points
import proofs.«143476_j54640573939741_2_alg».proof.Proof.Gen.KernelIdeal.Frame
import proofs.«143476_j54640573939741_2_alg».proof.Proof.Gen.ReferenceIdeal
import proofs.«143476_j54640573939741_2_alg».proof.Proof.Gen.ReferenceIdeal.Run
import proofs.«143476_j54640573939741_2_alg».proof.Proof.Gen.ReferenceIdeal.Read
import proofs.«143476_j54640573939741_2_alg».proof.Proof.Gen.Pre_finite_inputs
import proofs.«143476_j54640573939741_2_alg».proof.Proof.KernelArray
import proofs.«143476_j54640573939741_2_alg».proof.Proof.RefSide
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification's array of the arguments: the kernel's run read block by block,
    the reference's read stage by stage, from memories that agree on the arguments. -/
theorem algebraic : Cert.algebraic_KernelIdeal_ReferenceIdeal := by
  intro m ρ m' ρ' _ hagree
  refine ⟨_, Cert.Mlp.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Mlp.Ref.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
